-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4x8192x1024 .f32) (main_arg1 : FVec F S1024 .f32) (main_arg2 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S4x8192x1024 : Shape := ⟨3, ![4, 8192, 1024]⟩
abbrev S1024 : Shape := ⟨1, ![1024]⟩
abbrev S32768x1024 : Shape := ⟨2, ![32768, 1024]⟩
abbrev S1x1024 : Shape := ⟨2, ![1, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 8
  | .vmem => 6
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S32768x1024, .f32⟩
  | .hbm, ⟨4, _⟩ => ⟨S1x1024, .f32⟩
  | .hbm, ⟨5, _⟩ => ⟨S1x1024, .f32⟩
  | .hbm, ⟨6, _⟩ => ⟨S32768x1024, .f32⟩
  | .hbm, ⟨7, _⟩ => ⟨S4x8192x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1024, .f32⟩
  | .local _ .vmem, ⟨4, _⟩ => ⟨S2048x1024, .f32⟩
  | .local _ .vmem, ⟨5, _⟩ => ⟨S2048x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x8192x1024_S32768x1024 : S4x8192x1024.ShapeCasts S32768x1024
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S2048x1024_S2048 : S2048x1024.Reduces [1] S2048
  shapeCasts_S2048_S2048x1 : S2048.ShapeCasts S2048x1
  broadcasts_S2048x1_S2048x1024 : S2048x1.Broadcasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S32768x1024_S4x8192x1024 : S32768x1024.ShapeCasts S4x8192x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S32768x1024.size a
  hwx0_3 : ∀ i : grid0.Coords, EltTy.bits .f32 = 32 ∨ (Rect.block (s := S32768x1024) S2048x1024.size (cc0_transform_3 i) (hinb0_3 i)).WholeWords (EltTy.packing .f32)

variable [Facts₀]

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024, .f32⟩
  | .hbm, ⟨3, _⟩ => ⟨S_, .f32⟩
  | .hbm, ⟨4, _⟩ => ⟨S4x8192, .f32⟩
  | .hbm, ⟨5, _⟩ => ⟨S4x8192x1, .f32⟩
  | .hbm, ⟨6, _⟩ => ⟨S_, .f32⟩
  | .hbm, ⟨7, _⟩ => ⟨S4x8192x1, .f32⟩
  | .hbm, ⟨8, _⟩ => ⟨S4x8192x1, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S_, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1, .f32⟩
  | .hbm, ⟨24, _⟩ => ⟨S4x8192x1024, .f32⟩
  | .hbm, ⟨25, _⟩ => ⟨S4x8192x1024, .f32⟩
  | .hbm, ⟨26, _⟩ => ⟨S1x1x1024, .f32⟩
  | .hbm, ⟨27, _⟩ => ⟨S4x8192x1024, .f32⟩
  | .hbm, ⟨28, _⟩ => ⟨S4x8192x1024, .f32⟩
  | .hbm, ⟨29, _⟩ => ⟨S1x1x1024, .f32⟩
  | .hbm, ⟨30, _⟩ => ⟨S4x8192x1024, .f32⟩
  | .hbm, ⟨31, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]

class Facts₀ : Prop where
  reducesTo_S4x8192x1024_S4x8192_d2 : S4x8192x1024.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x1024_0_1_2 : S4x8192x1.BroadcastsInDim S4x8192x1024 (![0, 1, 2] : Fin 3 → Fin S4x8192x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)

variable [Facts₀]

class Facts : Prop extends Facts₀ where

variable [Facts]
-- ==== Proof.Spec.lean ====
/-
  Layer normalisation with an affine output, as ONE function on extended reals.

  A row `x₀ … x₁₀₂₃` is sent to `(x_k − μ) · (σ² + ε)^(−1/2) · a + b`, where `μ = (Σ x_k) / 1024` is the row's mean,
  `σ² = (Σ (x_k − μ)²) / 1024` its variance, `ε` the stabiliser and `a`, `b` the scale and shift of column `k`.
  The quotient is the extended reals' (`Ideal.div`), the inverse square root `Ideal.rsqrt`, and the two float
  literals stay the words they are printed as: `1024` and `ε` are never evaluated, since both programs carry the same
  words. The whole-array function is stated twice, once per arrangement of the rows: over `[4, 8192, 1024]`, row
  `(a, b)`, and over `[32768, 1024]`, row `p`, with the scale and shift stored as one row `[1, 1024]`; `onRows_eq_onBatch`
  says the two agree when row `p = a · 8192 + b` of one is row `(a, b)` of the other.
-/
import Idealize.ShloMosaic.PureOps.Ideal
import Idealize.ShloMosaic.Lib.ValueIdx

noncomputable section

open scoped BigOperators

namespace Cert.LayerNorm

open Idealize.ShloMosaic Idealize.ShloMosaic.ValueIdx

/-- The row length, as the extended real its f32 word denotes. -/
def width : EReal := Ideal.ofBits .f32 0x44800000#32
/-- The stabiliser added to the variance, as the extended real its f32 word denotes. -/
def eps : EReal := Ideal.ofBits .f32 0x3727C5AC#32

/-- The mean of a row. -/
def mean (row : Fin 1024 → EReal) : EReal := Ideal.div (∑ k : Fin 1024, row k) width
/-- A row's entry with the mean taken off. -/
def centred (row : Fin 1024 → EReal) (k : Fin 1024) : EReal := row k - mean row
/-- The variance of a row: the mean of the squared centred entries. -/
def variance (row : Fin 1024 → EReal) : EReal := Ideal.div (∑ k : Fin 1024, centred row k * centred row k) width
/-- The factor every centred entry of the row is multiplied by. -/
def scale (row : Fin 1024 → EReal) : EReal := Ideal.rsqrt (variance row + eps)
/-- Entry `k` of the normalised row, scaled by `a` and shifted by `b`. -/
def normalized (row : Fin 1024 → EReal) (a b : EReal) (k : Fin 1024) : EReal := centred row k * scale row * a + b

/-- The normalised row depends on the row only. -/
theorem normalized_congr {row row' : Fin 1024 → EReal} (h : ∀ k, row k = row' k) {a a' b b' : EReal} (ha : a = a') (hb : b = b')
    (k : Fin 1024) : normalized row a b k = normalized row' a' b' k := by
  rw [show row = row' from funext h, ha, hb]

/-- Layer normalisation of every row `(a, b)` of a `[4, 8192, 1024]` array, scale and shift vectors of length 1024. -/
def onBatch (x : (⟨3, ![4, 8192, 1024]⟩ : Shape).Idx → EReal) (α β : (⟨1, ![1024]⟩ : Shape).Idx → EReal) :
    (⟨3, ![4, 8192, 1024]⟩ : Shape).Idx → EReal :=
  fun i => normalized (fun k : Fin 1024 => x (ix3 (i 0 : Fin 4) (i 1 : Fin 8192) k))
    (α (ix1 (i 2 : Fin 1024))) (β (ix1 (i 2 : Fin 1024))) (i 2 : Fin 1024)

theorem onBatch_apply (x : (⟨3, ![4, 8192, 1024]⟩ : Shape).Idx → EReal) (α β : (⟨1, ![1024]⟩ : Shape).Idx → EReal)
    (a : Fin 4) (b : Fin 8192) (k : Fin 1024) :
    onBatch x α β (ix3 a b k) = normalized (fun k' : Fin 1024 => x (ix3 a b k')) (α (ix1 k)) (β (ix1 k)) k := rfl

/-- Layer normalisation of every row `p` of a `[32768, 1024]` array, scale and shift stored as rows `[1, 1024]`. -/
def onRows (X : (⟨2, ![32768, 1024]⟩ : Shape).Idx → EReal) (A B : (⟨2, ![1, 1024]⟩ : Shape).Idx → EReal) :
    (⟨2, ![32768, 1024]⟩ : Shape).Idx → EReal :=
  fun j => normalized (fun k : Fin 1024 => X (ix2 (j 0 : Fin 32768) k))
    (A (ix2 (0 : Fin 1) (j 1 : Fin 1024))) (B (ix2 (0 : Fin 1) (j 1 : Fin 1024))) (j 1 : Fin 1024)

theorem onRows_apply (X : (⟨2, ![32768, 1024]⟩ : Shape).Idx → EReal) (A B : (⟨2, ![1, 1024]⟩ : Shape).Idx → EReal)
    (p : Fin 32768) (k : Fin 1024) :
    onRows X A B (ix2 p k) = normalized (fun k' : Fin 1024 => X (ix2 p k')) (A (ix2 (0 : Fin 1) k)) (B (ix2 (0 : Fin 1) k)) k := rfl

/-- The two arrangements agree: if row `p` of `X` is row `(a, b)` of `x` and the stored rows are the vectors, entry
    `(p, k)` of one result is entry `(a, b, k)` of the other. -/
theorem onRows_eq_onBatch (x : (⟨3, ![4, 8192, 1024]⟩ : Shape).Idx → EReal) (α β : (⟨1, ![1024]⟩ : Shape).Idx → EReal)
    (X : (⟨2, ![32768, 1024]⟩ : Shape).Idx → EReal) (A B : (⟨2, ![1, 1024]⟩ : Shape).Idx → EReal)
    (a : Fin 4) (b : Fin 8192) (p : Fin 32768)
    (hX : ∀ k : Fin 1024, X (ix2 p k) = x (ix3 a b k))
    (hA : ∀ k : Fin 1024, A (ix2 (0 : Fin 1) k) = α (ix1 k)) (hB : ∀ k : Fin 1024, B (ix2 (0 : Fin 1) k) = β (ix1 k))
    (k : Fin 1024) : onRows X A B (ix2 p k) = onBatch x α β (ix3 a b k) := by
  rw [onRows_apply, onBatch_apply]
  exact normalized_congr hX (hA k) (hB k) k

end Cert.LayerNorm

end
-- ==== Proof.ReferenceValue.lean ====
/-
  The reference computes the specification: read one operation at a time, its result at `(a, b, k)` is the
  normalised row `(a, b)` at column `k`, scaled and shifted by the `k`-th entries of the two vectors.

  The stages follow the reference's own order. The row sum is the initial value (the zero word, which is `0`) plus
  the sum over the last axis; the mean is that sum over `1024`, kept as a trailing unit axis and broadcast back over
  the row; the centred entry is the difference; the variance is the mean of its squares; the scale is the inverse
  square root of the variance plus `ε`; the two vectors are broadcast over the rows. Every stage is an equation of
  extended reals between the generated stage and a term of `Cert.LayerNorm`.
-/
import proofs.«143632_g1872605741567_pilotgen1_107_9_alg».proof.Proof.Gen.ReferenceIdeal.Read
import proofs.«143632_g1872605741567_pilotgen1_107_9_alg».proof.Proof.Spec

noncomputable section

open scoped BigOperators

namespace Cert.ReferenceIdeal.RefValue

open Cert.ReferenceIdeal Cert.ReferenceIdeal.Read Idealize.ShloMosaic Idealize.ShloMosaic.ValueIdx Cert.LayerNorm

/-- The contents of the `[4, 8192, 1024]` argument, and of each vector argument, at `Ideal`. -/
abbrev Arr := (⟨S4x8192x1024, .f32⟩ : BufTy).Contents (Elt Ideal)
abbrev Vec1 := (⟨S1024, .f32⟩ : BufTy).Contents (Elt Ideal)

/-- Row `(a, b)` of the argument. -/
abbrev rowOf (x0 : Arr) (a : Fin 4) (b : Fin 8192) : Fin 1024 → EReal := fun k => x0 (ix3 a b k)

/-! ## The index maps of the generated stages, at coordinates -/

theorem idx_sum (a : Fin 4) (b : Fin 8192) (k : Fin 1024) : idx_main_v0 (ix2 a b) k = ix3 a b k :=
  funext fun d => Fin.ext (by match d with | ⟨0, _⟩ => rfl | ⟨1, _⟩ => rfl | ⟨2, _⟩ => rfl)
theorem idx_sum' (a : Fin 4) (b : Fin 8192) (k : Fin 1024) : idx_main_v7 (ix2 a b) k = ix3 a b k :=
  funext fun d => Fin.ext (by match d with | ⟨0, _⟩ => rfl | ⟨1, _⟩ => rfl | ⟨2, _⟩ => rfl)
theorem idx_keep (a : Fin 4) (b : Fin 8192) (u : Fin 1) : idx_main_v1 (ix3 a b u) = ix2 a b :=
  funext fun d => Fin.ext (by match d with | ⟨0, _⟩ => rfl | ⟨1, _⟩ => rfl)
theorem idx_keep' (a : Fin 4) (b : Fin 8192) (u : Fin 1) : idx_main_v8 (ix3 a b u) = ix2 a b :=
  funext fun d => Fin.ext (by match d with | ⟨0, _⟩ => rfl | ⟨1, _⟩ => rfl)
theorem idx_col4 (a : Fin 4) (b : Fin 8192) (k : Fin 1024) : idx_main_v4 (ix3 a b k) = ix3 a b (0 : Fin 1) :=
  funext fun d => Fin.ext (by match d with | ⟨0, _⟩ => rfl | ⟨1, _⟩ => rfl | ⟨2, _⟩ => rfl)
theorem idx_col11 (a : Fin 4) (b : Fin 8192) (k : Fin 1024) : idx_main_v11 (ix3 a b k) = ix3 a b (0 : Fin 1) :=
  funext fun d => Fin.ext (by match d with | ⟨0, _⟩ => rfl | ⟨1, _⟩ => rfl | ⟨2, _⟩ => rfl)
theorem idx_col16 (a : Fin 4) (b : Fin 8192) (k : Fin 1024) : idx_main_v16 (ix3 a b k) = ix3 a b (0 : Fin 1) :=
  funext fun d => Fin.ext (by match d with | ⟨0, _⟩ => rfl | ⟨1, _⟩ => rfl | ⟨2, _⟩ => rfl)
theorem idx_vec19 (a : Fin 4) (b : Fin 8192) (k : Fin 1024) : idx_main_v18 (idx_main_v19 (ix3 a b k)) = ix1 k :=
  funext fun d => Fin.ext (by match d with | ⟨0, _⟩ => rfl)
theorem idx_vec22 (a : Fin 4) (b : Fin 8192) (k : Fin 1024) : idx_main_v21 (idx_main_v22 (ix3 a b k)) = ix1 k :=
  funext fun d => Fin.ext (by match d with | ⟨0, _⟩ => rfl)

/-! ## The stages -/

/-- The sum of row `(a, b)`: the initial value is the zero word. -/
theorem rowSum_eq (x0 : Arr) (a : Fin 4) (b : Fin 8192) :
    val_main_v0 (F := Ideal) x0 (ix2 a b) = ∑ k : Fin 1024, rowOf x0 a b k := by
  rw [val_main_v0_apply, val_main_cst_apply, Ideal.ofBits_def, Ideal.ofBits_zero_f32, zero_add]
  exact Finset.sum_congr rfl fun k _ => congrArg x0 (idx_sum a b k)

/-- The mean of row `(a, b)`, kept on a trailing unit axis. -/
theorem mean_eq (x0 : Arr) (a : Fin 4) (b : Fin 8192) :
    val_main_v3 (F := Ideal) x0 (ix3 a b (0 : Fin 1)) = mean (rowOf x0 a b) := by
  rw [val_main_v3_apply, val_main_v1_apply, idx_keep, rowSum_eq, val_main_v2_apply, val_main_cst_0_apply]
  rfl

/-- The centred entry, as the reference computes it for the variance … -/
theorem centred_eq (x0 : Arr) (a : Fin 4) (b : Fin 8192) (k : Fin 1024) :
    val_main_v5 (F := Ideal) x0 (ix3 a b k) = centred (rowOf x0 a b) k := by
  rw [val_main_v5_apply, val_main_v4_apply, idx_col4, mean_eq]
  rfl

/-- … and again for the output. -/
theorem centred_eq' (x0 : Arr) (a : Fin 4) (b : Fin 8192) (k : Fin 1024) :
    val_main_v12 (F := Ideal) x0 (ix3 a b k) = centred (rowOf x0 a b) k := by
  rw [val_main_v12_apply, val_main_v11_apply, idx_col11, mean_eq]
  rfl

/-- The sum of the squared centred entries of row `(a, b)`. -/
theorem squareSum_eq (x0 : Arr) (a : Fin 4) (b : Fin 8192) :
    val_main_v7 (F := Ideal) x0 (ix2 a b)
      = ∑ k : Fin 1024, centred (rowOf x0 a b) k * centred (rowOf x0 a b) k := by
  rw [val_main_v7_apply, val_main_cst_1_apply, Ideal.ofBits_def, Ideal.ofBits_zero_f32, zero_add]
  refine Finset.sum_congr rfl fun k _ => ?_
  rw [idx_sum', val_main_v6_apply, centred_eq]
  rfl

/-- The variance of row `(a, b)`. -/
theorem variance_eq (x0 : Arr) (a : Fin 4) (b : Fin 8192) :
    val_main_v10 (F := Ideal) x0 (ix3 a b (0 : Fin 1)) = variance (rowOf x0 a b) := by
  rw [val_main_v10_apply, val_main_v8_apply, idx_keep', squareSum_eq, val_main_v9_apply, val_main_cst_2_apply]
  rfl

/-- The scale of row `(a, b)`: the host's inverse square root is the kernel's at `Ideal`. -/
theorem scale_eq (x0 : Arr) (a : Fin 4) (b : Fin 8192) :
    val_main_v15 (F := Ideal) x0 (ix3 a b (0 : Fin 1)) = scale (rowOf x0 a b) := by
  rw [val_main_v15_apply, val_main_v14_apply, variance_eq, val_main_v13_apply, val_main_cst_3_apply]
  rfl

/-- The normalised entry before the affine step. -/
theorem unit_eq (x0 : Arr) (a : Fin 4) (b : Fin 8192) (k : Fin 1024) :
    val_main_v17 (F := Ideal) x0 (ix3 a b k) = centred (rowOf x0 a b) k * scale (rowOf x0 a b) := by
  rw [val_main_v17_apply, centred_eq', val_main_v16_apply, idx_col16, scale_eq]
  rfl

/-- The scale vector broadcast over the rows reads its `k`-th entry. -/
theorem alpha_eq (x1 : Vec1) (a : Fin 4) (b : Fin 8192) (k : Fin 1024) :
    val_main_v19 (F := Ideal) x1 (ix3 a b k) = x1 (ix1 k) := by
  rw [val_main_v19_apply, val_main_v18_apply, idx_vec19]

/-- The shift vector broadcast over the rows reads its `k`-th entry. -/
theorem beta_eq (x2 : Vec1) (a : Fin 4) (b : Fin 8192) (k : Fin 1024) :
    val_main_v22 (F := Ideal) x2 (ix3 a b k) = x2 (ix1 k) := by
  rw [val_main_v22_apply, val_main_v21_apply, idx_vec22]

/-- The reference's result is the specification, index by index. -/
theorem result_eq (x0 : Arr) (x1 x2 : Vec1) : val_main_v23 (F := Ideal) x0 x1 x2 = onBatch x0 x1 x2 := by
  funext i
  obtain ⟨a, b, k, rfl⟩ : ∃ (a : Fin 4) (b : Fin 8192) (k : Fin 1024), i = ix3 a b k := ⟨i 0, i 1, i 2, eq_ix3 i⟩
  rw [val_main_v23_apply, val_main_v20_apply, unit_eq, alpha_eq, beta_eq, onBatch_apply]
  rfl

end Cert.ReferenceIdeal.RefValue

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.KernelBody.lean ====
/-
  What the kernel's body stores, read at one entry `(p, q)` of a `[2048, 1024]` block: the specification's
  normalised row `p` of the loaded block at column `q`, scaled and shifted by the loaded rows' `q`-th entries.

  The body works on whole blocks: a lane sum of every row gives a vector of length 2048, turned into a column
  `[2048, 1]`, divided by `1024` and broadcast back over the 1024 lanes. Read at `(p, q)` the column is its entry
  `(p, 0)`, the vector its entry `p`, and the lane sum the finite sum `Σ_k` of row `p`: so the mean column at
  `(p, 0)` is `mean` of row `p`, the centred block at `(p, q)` is `centred` of row `p` at `q`, and the second lane sum,
  over the squares of the centred block, gives `variance` and then `scale` of row `p`. The two parameter rows
  `[1, 1024]` are broadcast over the 2048 rows and read their entry `(0, q)`.
-/
import proofs.«143632_g1872605741567_pilotgen1_107_9_alg».proof.Proof.Gen.KernelIdeal.Skeleton
import proofs.«143632_g1872605741567_pilotgen1_107_9_alg».proof.Proof.Spec
import proofs.«143632_g1872605741567_pilotgen1_107_9_alg».proof.Proof.LibColumnForms
import Idealize.ShloMosaic.Lib.ValueLayout
import Idealize.ShloMosaic.Lib.Pipeline.Value
import Idealize.ShloMosaic.PureOps.Ideal.Laws

noncomputable section

open scoped BigOperators

namespace Cert.KernelIdeal.BodyValue

open Cert.KernelIdeal Cert.KernelIdeal.Gen Idealize.ShloMosaic Idealize.ShloMosaic.ValueIdx Idealize.ShloMosaic.ValueLayout
  Cert.LayerNorm

/-- Row `p` of a block. -/
abbrev rowOf (src : FVec Ideal S2048x1024 .f32) (p : Fin 2048) : Fin 1024 → EReal := fun k => src (ix2 p k)

/-- The reduced index `p` with lane `k` put back is `(p, k)`. -/
theorem lift_lane (p : Fin 2048) (k : Fin 1024) :
    reduces_S2048x1024_S2048.lift (ix1 p) k = ix2 p k :=
  funext fun d => Fin.ext (by match d with | ⟨0, _⟩ => rfl | ⟨1, _⟩ => rfl)

/-! ## The lane sums, as a column -/

/-- Every row's lane sum, as a column `[2048, 1]`. -/
def rowSums (src : FVec Ideal S2048x1024 .f32) : FVec Ideal S2048x1 .f32 :=
  shapeCast S2048x1 (multiReduction .add [1] S2048 src 0x00000000#32 reduces_S2048x1024_S2048 (.inl rfl) rfl)
    shapeCasts_S2048_S2048x1

theorem rowSums_apply (src : FVec Ideal S2048x1024 .f32) (p : Fin 2048) :
    rowSums src (ix2 p (0 : Fin 1)) = ∑ k : Fin 1024, rowOf src p k := by
  unfold rowSums
  rw [shapeCast_a_a1_apply]
  refine (Ideal.multiReduction_add_single src 0x00000000#32 reduces_S2048x1024_S2048 (.inl rfl) rfl (ix1 p)).trans ?_
  exact Finset.sum_congr rfl fun k _ => congrArg src (lift_lane p k)

/-- Every row's mean, as a column. -/
def rowMeans (src : FVec Ideal S2048x1024 .f32) : FVec Ideal S2048x1 .f32 :=
  divf (rowSums src) (broadcast S2048x1 (Scalar.ofBits .f32 0x44800000#32))

theorem rowMeans_apply (src : FVec Ideal S2048x1024 .f32) (p : Fin 2048) :
    rowMeans src (ix2 p (0 : Fin 1)) = mean (rowOf src p) := by
  show Ideal.div (rowSums src (ix2 p (0 : Fin 1))) _ = _
  rw [rowSums_apply]
  rfl

/-! ## The centred block and the scales -/

/-- The block with every row's mean taken off. -/
def centredBlock (src : FVec Ideal S2048x1024 .f32) : FVec Ideal S2048x1024 .f32 :=
  subf src (broadcastTo S2048x1024 (rowMeans src) broadcasts_S2048x1_S2048x1024)

theorem centredBlock_apply (src : FVec Ideal S2048x1024 .f32) (p : Fin 2048) (q : Fin 1024) :
    centredBlock src (ix2 p q) = centred (rowOf src p) q := by
  show src (ix2 p q) - broadcastTo S2048x1024 (rowMeans src) broadcasts_S2048x1_S2048x1024 (ix2 p q) = _
  rw [broadcastTo_a1_ab_apply, rowMeans_apply]
  rfl

/-- Every row's scale, as a column. -/
def rowScales (src : FVec Ideal S2048x1024 .f32) : FVec Ideal S2048x1 .f32 :=
  rsqrt (addf (divf (rowSums (mulf (centredBlock src) (centredBlock src))) (broadcast S2048x1 (Scalar.ofBits .f32 0x44800000#32)))
    (broadcast S2048x1 (Scalar.ofBits .f32 0x3727C5AC#32)))

theorem rowScales_apply (src : FVec Ideal S2048x1024 .f32) (p : Fin 2048) :
    rowScales src (ix2 p (0 : Fin 1)) = scale (rowOf src p) := by
  show Ideal.rsqrt (Ideal.div (rowSums (mulf (centredBlock src) (centredBlock src)) (ix2 p (0 : Fin 1))) _ + _) = _
  rw [rowSums_apply]
  have hsq : ∀ k : Fin 1024, rowOf (mulf (centredBlock src) (centredBlock src)) p k
      = centred (rowOf src p) k * centred (rowOf src p) k := fun k => by
    show centredBlock src (ix2 p k) * centredBlock src (ix2 p k) = _
    rw [centredBlock_apply]
  rw [Finset.sum_congr rfl fun k _ => hsq k]
  rfl

/-! ## The stored value -/

/-- The body's stored block from the three loaded ones. -/
def stored (x : FVec Ideal S2048x1024 .f32) (a b : FVec Ideal S1x1024 .f32) : FVec Ideal S2048x1024 .f32 :=
  addf (mulf (mulf (centredBlock x) (broadcastTo S2048x1024 (rowScales x) broadcasts_S2048x1_S2048x1024))
    (broadcastTo S2048x1024 a broadcasts_S1x1024_S2048x1024)) (broadcastTo S2048x1024 b broadcasts_S1x1024_S2048x1024)

theorem stored_apply (x : FVec Ideal S2048x1024 .f32) (a b : FVec Ideal S1x1024 .f32) (p : Fin 2048) (q : Fin 1024) :
    stored x a b (ix2 p q) = normalized (rowOf x p) (a (ix2 (0 : Fin 1) q)) (b (ix2 (0 : Fin 1) q)) q := by
  show centredBlock x (ix2 p q) * broadcastTo S2048x1024 (rowScales x) broadcasts_S2048x1_S2048x1024 (ix2 p q)
      * broadcastTo S2048x1024 a broadcasts_S1x1024_S2048x1024 (ix2 p q)
      + broadcastTo S2048x1024 b broadcasts_S1x1024_S2048x1024 (ix2 p q) = _
  rw [centredBlock_apply, broadcastTo_a1_ab_apply, rowScales_apply, broadcastTo_1b_ab_apply, broadcastTo_1b_ab_apply]
  rfl

/-- The payload of the body's one store is that block: the body's shape casts are casts of a shape to itself. -/
theorem payload_eq (v0 : Vec Ideal S2048x1024 .f32) (v18 v22 : Vec Ideal S1x1024 .f32) :
    k0_pay1 (F := Ideal) v0 v18 v22 = stored v0 v18 v22 := by
  have h : k0_pay1 (F := Ideal) v0 v18 v22
      = stored (shapeCast S2048x1024 v0 shapeCasts_S2048x1024_S2048x1024) (shapeCast S1x1024 v18 shapeCasts_S1x1024_S1x1024)
          (shapeCast S1x1024 v22 shapeCasts_S1x1024_S1x1024) := rfl
  rw [h, shapeCast_self, shapeCast_self, shapeCast_self]

/-- The payload at `(p, q)`. -/
theorem payload_apply (v0 : Vec Ideal S2048x1024 .f32) (v18 v22 : Vec Ideal S1x1024 .f32) (p : Fin 2048) (q : Fin 1024) :
    k0_pay1 (F := Ideal) v0 v18 v22 (ix2 p q)
      = normalized (fun k : Fin 1024 => v0 (ix2 p k)) (v18 (ix2 (0 : Fin 1) q)) (v22 (ix2 (0 : Fin 1) q)) q := by
  rw [payload_eq]
  exact stored_apply v0 v18 v22 p q

end Cert.KernelIdeal.BodyValue

end
-- ==== Proof.KernelArray.lean ====
/-
  From blocks to the array: after the region the kernel's output array `[32768, 1024]` holds the normalised rows of
  the input array as the region found it.

  The grid has 16 points. At point `t` the input block is rows `2048·t … 2048·t + 2047` of the `[32768, 1024]` array,
  all 1024 columns; the two parameter blocks are the whole one-row arrays at every point; the output block is the
  same rows of the output array. So entry `(p, q)` of what point `t` writes back is, by the body's value, the
  normalised row `p` of the input block at `q`, which is row `2048·t + p` of the input array: block `t` of `onRows`.
  Every row `r` of the output array lies in the block of point `r / 2048`, every point writes its block back, and the
  blocks therefore cover the array.
-/
import proofs.«143632_g1872605741567_pilotgen1_107_9_alg».proof.Proof.Gen.KernelIdeal.Frame
import proofs.«143632_g1872605741567_pilotgen1_107_9_alg».proof.Proof.KernelBody
import Idealize.ShloMosaic.Lib.Pipeline.Value

set_option maxRecDepth 16384

noncomputable section

namespace Cert.KernelIdeal.ArrayValue

open Cert.KernelIdeal Cert.KernelIdeal.Gen Idealize.ShloMosaic Idealize.ShloMosaic.TcCoe Idealize.ShloMosaic.ValueIdx
  Idealize.SL.Sem Cert.LayerNorm
open Idealize.ShloMosaic.Pipeline (Dat Cfg Window)

variable (m : (ℓ : Loc nD τ sig) → Buf (Elt Ideal) ℓ)

theorem origin : (![0, 0] : Fin 2 → Nat) = fun _ => 0 := funext fun a => by fin_cases a <;> rfl

/-- The block indices of the four windows, decided over the grid: the input and the output move down the rows with
    the point, the parameter rows stay. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The body's value at `(p, q)` over any three blocks that agree with row `P` of an array and with two stored rows. -/
theorem block_entry (x0 : Vec Ideal S2048x1024 .f32) (x1 x2 : Vec Ideal S1x1024 .f32)
    (X : (⟨2, ![32768, 1024]⟩ : Shape).Idx → EReal) (A B : (⟨2, ![1, 1024]⟩ : Shape).Idx → EReal)
    (p : Fin 2048) (q : Fin 1024) (P : Fin 32768)
    (h0 : ∀ k : Fin 1024, x0 (ix2 p k) = X (ix2 P k))
    (h1 : x1 (ix2 (0 : Fin 1) q) = A (ix2 (0 : Fin 1) q)) (h2 : x2 (ix2 (0 : Fin 1) q) = B (ix2 (0 : Fin 1) q)) :
    k0_pay1 (F := Ideal) x0 x1 x2 (ix2 p q) = onRows X A B (ix2 P q) := by
  rw [BodyValue.payload_apply, onRows_apply]
  exact normalized_congr h0 h1 h2 q

/-- What point `t` writes back is block `t` of the normalised rows of the arrays as the region finds them. -/
theorem flushed_eq (c : Dev nD) (t : Fin cfg0.N) :
    (dats m 0 c).flushed 3 t
      = ((cfg0.win 3).blk t).view.read (Elt Ideal) (onRows (V m c main_v0) (V m c main_v1) (V m c main_v2)) := by
  show (cfg0.win 3).cut (grid0.coords t) ((dats m 0 c).after 3 t) = _
  rw [after0_3]
  unfold out0_3
  rw [View.canon_unit_zero origin]
  simp only [View.ld_unit_zero (S := S2048x1024) origin, View.ld_unit_zero (S := S1x1024) origin]
  obtain ⟨e00, e01, e10, e11, e20, e21, e30, e31⟩ := block_indices t
  have hN : grid0.N = 16 := N_0
  have ht : t.val < 16 := by have h : t.val < grid0.N := t.isLt; omega
  funext j
  obtain ⟨p, q, rfl⟩ : ∃ (p : Fin 2048) (q : Fin 1024), j = ix2 p q := ⟨j 0, j 1, eq_ix2 j⟩
  have hp : p.val < 2048 := p.isLt
  have hq : q.val < 1024 := q.isLt
  show k0_pay1 (F := Ideal) (iblk m c 0 t) (iblk m c 1 t) (iblk m c 2 t) (ix2 p q)
    = onRows (V m c main_v0) (V m c main_v1) (V m c main_v2) (((cfg0.win 3).blk t).view.emb (ix2 p q))
  have hout : ((cfg0.win 3).blk t).view.emb (ix2 p q) = ix2 (⟨t.val * 2048 + p.val, by omega⟩ : Fin 32768) q := by
    funext a; apply Fin.ext
    match a with
    | ⟨0, _⟩ => show win0_3.index t (0 : Fin 2) * 2048 + 1 * p.val = t.val * 2048 + p.val; omega
    | ⟨1, _⟩ => show win0_3.index t (1 : Fin 2) * 1024 + 1 * q.val = q.val; omega
  rw [hout]
  refine block_entry (iblk m c 0 t) (iblk m c 1 t) (iblk m c 2 t) (V m c main_v0) (V m c main_v1) (V m c main_v2) p q
    (⟨t.val * 2048 + p.val, by omega⟩ : Fin 32768) (fun k => ?_) ?_ ?_
  · show V m c main_v0 (((cfg0.win 0).blk t).view.emb (ix2 p k)) = V m c main_v0 (ix2 (⟨t.val * 2048 + p.val, by omega⟩ : Fin 32768) k)
    refine congrArg (V m c main_v0) (funext fun a => Fin.ext ?_)
    match a with
    | ⟨0, _⟩ => show win0_0.index t (0 : Fin 2) * 2048 + 1 * p.val = t.val * 2048 + p.val; omega
    | ⟨1, _⟩ => show win0_0.index t (1 : Fin 2) * 1024 + 1 * k.val = k.val; omega
  · show V m c main_v1 (((cfg0.win 1).blk t).view.emb (ix2 (0 : Fin 1) q)) = V m c main_v1 (ix2 (0 : Fin 1) q)
    refine congrArg (V m c main_v1) (funext fun a => Fin.ext ?_)
    match a with
    | ⟨0, _⟩ => show win0_1.index t (0 : Fin 2) * 1 + 1 * 0 = 0; omega
    | ⟨1, _⟩ => show win0_1.index t (1 : Fin 2) * 1024 + 1 * q.val = q.val; omega
  · show V m c main_v2 (((cfg0.win 2).blk t).view.emb (ix2 (0 : Fin 1) q)) = V m c main_v2 (ix2 (0 : Fin 1) q)
    refine congrArg (V m c main_v2) (funext fun a => Fin.ext ?_)
    match a with
    | ⟨0, _⟩ => show win0_2.index t (0 : Fin 2) * 1 + 1 * 0 = 0; omega
    | ⟨1, _⟩ => show win0_2.index t (1 : Fin 2) * 1024 + 1 * q.val = q.val; omega

/-- An index of the output array is in point `t`'s block iff each coordinate is in the block's range on its axis. -/
theorem mem_block (t : Fin cfg0.N) (i : S32768x1024.Idx) :
    i ∈ ((cfg0.win 3).blk t).view.set
      ↔ ∀ a : Fin 2, win0_3.index t a * S2048x1024.size a ≤ (i a).val
          ∧ (i a).val < win0_3.index t a * S2048x1024.size a + S2048x1024.size a := by
  show i ∈ ((View.whole main_v3).slice (win0_3.rect t)).set ↔ _
  rw [View.set_slice_whole, Rect.mem_set_unit]
  exact Iff.rfl

/-- Row `r` of the output array is written back by point `r / 2048`. -/
theorem covered (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  have hN : grid0.N = 16 := N_0
  have hlt : (i 0).val / 2048 < grid0.N := by rw [hN]; omega
  obtain ⟨-, -, -, -, -, -, e30, e31⟩ := block_indices ⟨(i 0).val / 2048, hlt⟩
  refine ⟨⟨(i 0).val / 2048, hlt⟩, flush0_3 _, ?_⟩
  rw [mem_block]
  intro a
  match a with
  | ⟨0, _⟩ =>
    show win0_3.index ⟨(i 0).val / 2048, hlt⟩ (0 : Fin 2) * 2048 ≤ (i 0).val
      ∧ (i 0).val < win0_3.index ⟨(i 0).val / 2048, hlt⟩ (0 : Fin 2) * 2048 + 2048
    have e : win0_3.index ⟨(i 0).val / 2048, hlt⟩ (0 : Fin 2) = (i 0).val / 2048 := e30
    omega
  | ⟨1, _⟩ =>
    show win0_3.index ⟨(i 0).val / 2048, hlt⟩ (1 : Fin 2) * 1024 ≤ (i 1).val
      ∧ (i 1).val < win0_3.index ⟨(i 0).val / 2048, hlt⟩ (1 : Fin 2) * 1024 + 1024
    omega

/-- The output array after the region: the normalised rows of the arrays the region found. -/
theorem array_eq (c : Dev nD) :
    (dats m 0 c).arrAt 3 cfg0.N = onRows (V m c main_v0) (V m c main_v1) (V m c main_v2) :=
  (dats m 0 c).arrAt_eq_of_cover 3 (onRows (V m c main_v0) (V m c main_v1) (V m c main_v2))
    (fun t _ => flushed_eq m c t) covered

end Cert.KernelIdeal.ArrayValue

end
-- ==== Proof.LibRankThreeForms.lean ====
/-
  Layout operations on rank-3 arrays read at an index given by coordinates: a middle or trailing unit axis added,
  dropped or broadcast, the two leading axes merged into one or split again, and a slice along the last axis.
  Each is the general reading of a shape cast (equal row-major positions), a broadcast (the unit axis reads
  coordinate 0) or a slice (the offset is added) specialised to indices written by their coordinates.
-/
import Idealize.ShloMosaic.Lib.ValueIdx
import Idealize.ShloMosaic.Lib.Pipeline.Value

namespace Idealize.ShloMosaic.ValueIdx

open Idealize.ShloMosaic

variable {α : Type}

/-- Splitting the leading axis of an [a·b, c] array into [a, b, c]: entry (r, n, k) is entry (r·b + n, k). -/
theorem shapeCast_pc_abc_apply {a b c ab : ℕ} (x : (⟨2, ![ab, c]⟩ : Shape).Idx → α)
    (h : (⟨2, ![ab, c]⟩ : Shape).ShapeCasts ⟨3, ![a, b, c]⟩) (r : Fin a) (n : Fin b) (k : Fin c) (p : Fin ab)
    (hp : p.val = r.val * b + n.val) : shapeCast ⟨3, ![a, b, c]⟩ x h (ix3 r n k) = x (ix2 p k) :=
  shapeCast_apply x h _ _ (by
    rw [Shape.rowMajor_val_three, Shape.rowMajor_val_two]
    show p.val * c + k.val = (r.val * b + n.val) * c + k.val
    rw [hp])

/-- Merging the two leading axes of an [a, b, c] array into [a·b, c]: entry (r·b + n, k) is entry (r, n, k). -/
theorem shapeCast_abc_pc_apply {a b c ab : ℕ} (x : (⟨3, ![a, b, c]⟩ : Shape).Idx → α)
    (h : (⟨3, ![a, b, c]⟩ : Shape).ShapeCasts ⟨2, ![ab, c]⟩) (r : Fin a) (n : Fin b) (k : Fin c) (p : Fin ab)
    (hp : p.val = r.val * b + n.val) : shapeCast ⟨2, ![ab, c]⟩ x h (ix2 p k) = x (ix3 r n k) :=
  shapeCast_apply x h _ _ (by
    rw [Shape.rowMajor_val_three, Shape.rowMajor_val_two]
    show (r.val * b + n.val) * c + k.val = p.val * c + k.val
    rw [hp])

/-- A unit axis put in the middle of an [a, c] array: entry (r, u, k) of the [a, 1, c] array is entry (r, k). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (k : Fin c) :
    shapeCast ⟨3, ![a, 1, c]⟩ x h (ix3 r u k) = x (ix2 r k) :=
  shapeCast_apply x h _ _ (by
    have hu : u.val = 0 := by omega
    rw [Shape.rowMajor_val_three, Shape.rowMajor_val_two]
    show r.val * c + k.val = (r.val * 1 + u.val) * c + k.val
    rw [hu, Nat.mul_one, Nat.add_zero])

/-- A middle unit axis broadcast to length b: entry (r, n, k) reads entry (r, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (n : Fin b) (k : Fin c) :
    broadcastTo ⟨3, ![a, b, c]⟩ x h (ix3 r n k) = x (ix3 r (0 : Fin 1) k) := by
  refine broadcastTo_apply x h (ix3 r n k) (ix3 r (0 : Fin 1) k) fun ax => ?_
  match ax with
  | ⟨0, _⟩ =>
    show r.val = if a = 1 then 0 else r.val
    split
    · omega
    · rfl
  | ⟨1, _⟩ => rfl
  | ⟨2, _⟩ =>
    show k.val = if c = 1 then 0 else k.val
    split
    · omega
    · rfl

/-- A trailing unit axis dropped: entry (r, n) of the [a, b] array is entry (r, n, 0) of the [a, b, 1] one. -/
theorem shapeCast_ab1_ab_apply {a b : ℕ} (x : (⟨3, ![a, b, 1]⟩ : Shape).Idx → α)
    (h : (⟨3, ![a, b, 1]⟩ : Shape).ShapeCasts ⟨2, ![a, b]⟩) (r : Fin a) (n : Fin b) :
    shapeCast ⟨2, ![a, b]⟩ x h (ix2 r n) = x (ix3 r n (0 : Fin 1)) :=
  shapeCast_apply x h _ _ (by
    rw [Shape.rowMajor_val_three, Shape.rowMajor_val_two]
    show (r.val * b + n.val) * 1 + 0 = r.val * b + n.val
    rw [Nat.mul_one, Nat.add_zero])

/-- A trailing unit axis added: entry (r, n, u) of the [a, b, 1] array is entry (r, n) of the [a, b] one. -/
theorem shapeCast_ab_ab1_apply {a b : ℕ} (x : (⟨2, ![a, b]⟩ : Shape).Idx → α)
    (h : (⟨2, ![a, b]⟩ : Shape).ShapeCasts ⟨3, ![a, b, 1]⟩) (r : Fin a) (n : Fin b) (u : Fin 1) :
    shapeCast ⟨3, ![a, b, 1]⟩ x h (ix3 r n u) = x (ix2 r n) :=
  shapeCast_apply x h _ _ (by
    have hu : u.val = 0 := by omega
    rw [Shape.rowMajor_val_three, Shape.rowMajor_val_two]
    show r.val * b + n.val = (r.val * b + n.val) * 1 + u.val
    rw [hu, Nat.mul_one, Nat.add_zero])

/-- A trailing unit axis broadcast to length c: entry (r, n, k) reads entry (r, n, 0). -/
theorem broadcastTo_ab1_abc_apply {a b c : ℕ} (x : (⟨3, ![a, b, 1]⟩ : Shape).Idx → α)
    (h : (⟨3, ![a, b, 1]⟩ : Shape).Broadcasts ⟨3, ![a, b, c]⟩) (r : Fin a) (n : Fin b) (k : Fin c) :
    broadcastTo ⟨3, ![a, b, c]⟩ x h (ix3 r n k) = x (ix3 r n (0 : Fin 1)) := by
  refine broadcastTo_apply x h (ix3 r n k) (ix3 r n (0 : Fin 1)) fun ax => ?_
  match ax with
  | ⟨0, _⟩ =>
    show r.val = if a = 1 then 0 else r.val
    split
    · omega
    · rfl
  | ⟨1, _⟩ =>
    show n.val = if b = 1 then 0 else n.val
    split
    · omega
    · rfl
  | ⟨2, _⟩ => rfl

/-- A rank-3 array cut along its last axis from `o` reads, at (r, n, j), the source at (r, n, k) with k = o + j. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (r : Fin n0) (n : Fin n1) (j : Fin m) (k : Fin n2) (hk : k.val = o + j.val) :
    extractStridedSlice ⟨3, ![n0, n1, m]⟩ ![0, 0, o] X h (ix3 r n j) = X (ix3 r n k) :=
  extractStridedSlice_apply _ _ _ _ _ (fun ax => by
    match ax with
    | ⟨0, _⟩ => exact (Nat.zero_add _).symm
    | ⟨1, _⟩ => exact (Nat.zero_add _).symm
    | ⟨2, _⟩ => exact hk)

end Idealize.ShloMosaic.ValueIdx
-- ==== Proof.Layout.lean ====
/-
  Normalising the rows of the flattened array is normalising the rows of the batch.

  The kernel's program merges the two leading axes of the `[4, 8192, 1024]` argument into one, `[32768, 1024]`, stores
  the two parameter vectors as rows `[1, 1024]`, normalises every one of the 32768 rows, and splits the leading axis
  of the result again. A shape cast keeps row-major positions, so row `a · 8192 + b` of the merged array is row
  `(a, b)` of the argument, entry `(0, k)` of a stored row is entry `k` of its vector, and entry `(a, b, k)` of the split
  result is entry `(a · 8192 + b, k)` of the merged one. With `onRows_eq_onBatch` the round trip is `onBatch`.
-/
import proofs.«143632_g1872605741567_pilotgen1_107_9_alg».proof.Proof.Spec
import proofs.«143632_g1872605741567_pilotgen1_107_9_alg».proof.Proof.LibRankThreeForms
import Idealize.ShloMosaic.Lib.ValueLayout
import Idealize.ShloMosaic.Lib.Pipeline.Value

noncomputable section

namespace Cert.LayerNorm

open Idealize.ShloMosaic Idealize.ShloMosaic.ValueIdx

/-- Row `(a, b)` of the batch sits at row `a · 8192 + b` of the merged array. -/
def mergedRow (a : Fin 4) (b : Fin 8192) : Fin 32768 := ⟨a.val * 8192 + b.val, by have := a.isLt; have := b.isLt; omega⟩

theorem split_onRows_merge (x : (⟨3, ![4, 8192, 1024]⟩ : Shape).Idx → EReal) (α β : (⟨1, ![1024]⟩ : Shape).Idx → EReal)
    (hm : (⟨3, ![4, 8192, 1024]⟩ : Shape).ShapeCasts ⟨2, ![32768, 1024]⟩)
    (hr : (⟨1, ![1024]⟩ : Shape).ShapeCasts ⟨2, ![1, 1024]⟩)
    (hs : (⟨2, ![32768, 1024]⟩ : Shape).ShapeCasts ⟨3, ![4, 8192, 1024]⟩) :
    shapeCast ⟨3, ![4, 8192, 1024]⟩
        (onRows (shapeCast ⟨2, ![32768, 1024]⟩ x hm) (shapeCast ⟨2, ![1, 1024]⟩ α hr) (shapeCast ⟨2, ![1, 1024]⟩ β hr)) hs
      = onBatch x α β := by
  funext i
  obtain ⟨a, b, k, rfl⟩ : ∃ (a : Fin 4) (b : Fin 8192) (k : Fin 1024), i = ix3 a b k := ⟨i 0, i 1, i 2, eq_ix3 i⟩
  rw [shapeCast_pc_abc_apply _ hs a b k (mergedRow a b) rfl]
  exact onRows_eq_onBatch x α β _ _ _ a b (mergedRow a b)
    (fun k' => shapeCast_abc_pc_apply x hm a b k' (mergedRow a b) rfl)
    (fun k' => shapeCast_a_1a_apply α hr (0 : Fin 1) k')
    (fun k' => shapeCast_a_1a_apply β hr (0 : Fin 1) k') k

end Cert.LayerNorm

end
-- ==== Proof.KernelRun.lean ====
/-
  The kernel's program end to end: its result array holds `onBatch` of the three argument arrays.

  Before the region three reshapes run: the `[4, 8192, 1024]` argument is merged to `[32768, 1024]` and each parameter
  vector is stored as a row `[1, 1024]`; these are the arrays the region finds. After the region one reshape splits
  the region's output array `[32768, 1024]` back to `[4, 8192, 1024]`. The region's output is `onRows` of what it found
  (the blocks-to-array step), so the result is a shape cast of `onRows` of three shape casts, which is `onBatch`
  of the arguments (`split_onRows_merge`). The frame run also leaves the three arguments as launched.
-/
import proofs.«143632_g1872605741567_pilotgen1_107_9_alg».proof.Proof.Gen.KernelIdeal.Frame
import proofs.«143632_g1872605741567_pilotgen1_107_9_alg».proof.Proof.KernelArray
import proofs.«143632_g1872605741567_pilotgen1_107_9_alg».proof.Proof.Layout
import Idealize.ShloMosaic.Lib.StableHlo.Run

set_option maxRecDepth 16384

noncomputable section

namespace Cert.KernelIdeal.RunValue

open Cert.KernelIdeal Cert.KernelIdeal.Gen Idealize.ShloMosaic Idealize.ShloMosaic.TcCoe Idealize.ShloMosaic.ValueIdx
  Idealize.SL.Sem Idealize.ShloMosaic.StableHlo Cert.LayerNorm

variable (m : (ℓ : Loc nD τ sig) → Buf (Elt Ideal) ℓ) (ρ : Dev nD → PrngReg)

/-! ## The arrays the region finds -/

/-- The region's input array is the argument with its two leading axes merged. -/
theorem found_input (c : Dev nD) :
    (V m c main_v0 : S32768x1024.Idx → EReal)
      = shapeCast S32768x1024 (m ((c.tc : Thread nD τ).loc main_arg0)) shapeCasts_S4x8192x1024_S32768x1024 := by
  show StableHlo.after hostOps0 (fun b => m (c, b)) (Proc.devRef .tc main_v0) = _
  after_results
  rfl

/-- The scale vector, stored as a row. -/
theorem found_scale (c : Dev nD) :
    (V m c main_v1 : S1x1024.Idx → EReal)
      = shapeCast S1x1024 (m ((c.tc : Thread nD τ).loc main_arg1)) shapeCasts_S1024_S1x1024 := by
  show StableHlo.after hostOps0 (fun b => m (c, b)) (Proc.devRef .tc main_v1) = _
  after_results
  rfl

/-- The shift vector, stored as a row. -/
theorem found_shift (c : Dev nD) :
    (V m c main_v2 : S1x1024.Idx → EReal)
      = shapeCast S1x1024 (m ((c.tc : Thread nD τ).loc main_arg2)) shapeCasts_S1024_S1x1024 := by
  show StableHlo.after hostOps0 (fun b => m (c, b)) (Proc.devRef .tc main_v2) = _
  after_results
  rfl

/-! ## The result after the tail -/

/-- The program's result is the region's output array with its leading axis split. -/
theorem result_split (c : Dev nD) :
    (Pipeline.afterTail₀ cfgs (dats m) 0 (V0 m) [hostOps1] c main_v4 : S4x8192x1024.Idx → EReal)
      = shapeCast S4x8192x1024 ((dats m 0 c).arrAt 3 cfg0.N) shapeCasts_S32768x1024_S4x8192x1024 := by
  unfold Pipeline.afterTail₀
  show StableHlo.after hostOps1 _ (Proc.devRef .tc main_v4) = _
  after_results
  exact congrArg (fun A => shapeCast S4x8192x1024 A shapeCasts_S32768x1024_S4x8192x1024)
    (Pipeline.withArrays_arr spec0 launch0.win.arr_inj c _ _ 3)

/-- The program's result is `onBatch` of the arguments. -/
theorem result_eq (c : Dev nD) :
    (Pipeline.afterTail₀ cfgs (dats m) 0 (V0 m) [hostOps1] c main_v4 : S4x8192x1024.Idx → EReal)
      = onBatch (m ((c.tc : Thread nD τ).loc main_arg0)) (m ((c.tc : Thread nD τ).loc main_arg1))
          (m ((c.tc : Thread nD τ).loc main_arg2)) := by
  rw [result_split, ArrayValue.array_eq, found_input, found_scale, found_shift]
  exact split_onRows_merge _ _ _ _ _ _

/-! ## The run -/

/-- Every weakly fair execution of the kernel's program terminates with its result at `onBatch` of the arguments
    and the arguments as launched. -/
theorem run : θ_run defs (onTc (τ := τ) (main (F := Ideal))) ⟨m, fun _ => 0, ρ⟩ fun r => ∀ c : Dev nD,
      r.2.mem ((c.tc : Thread nD τ).loc main_v4)
        = onBatch (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.RunValue

end
-- ==== Proof.lean ====
/-
  An affine layer normalisation over the last axis of a `[4, 8192, 1024]` array, computed by a tiled kernel, against
  its plain reference: both end with the same array of extended reals.

  Each row `x₀ … x₁₀₂₃` becomes `(x_k − μ) · (σ² + ε)^(−1/2) · α_k + β_k` with `μ` the row's mean and `σ²` the mean of
  the squared deviations (`Cert.LayerNorm`). The reference computes this on the whole array with sums over the last
  axis kept as unit axes and broadcast back (`ReferenceValue`). The kernel's program merges the two leading axes,
  visits the 32768 rows in 16 blocks of 2048, computes every row of a block with a lane sum, a column division and a
  lane broadcast (`KernelBody`), writes each block back so that the blocks cover the output (`KernelArray`), and
  splits the leading axis again (`KernelRun`, `Layout`). At the extended reals both are the same operations on the
  same numbers in the same order, with the same words for `1024` and `ε`: no law of arithmetic is used beyond
  `0 + s = s` for the reference's initial value, and the inputs' finiteness is not needed.

  The three frames are the generated ones (the reference's is its generated run with the result dropped); the ideal
  pass rewrote nothing, so there is nothing to preserve.
-/
import proofs.«143632_g1872605741567_pilotgen1_107_9_alg».proof.Defs
import proofs.«143632_g1872605741567_pilotgen1_107_9_alg».proof.Proof.Gen.Kernel
import proofs.«143632_g1872605741567_pilotgen1_107_9_alg».proof.Proof.Gen.Kernel.Skeleton
import proofs.«143632_g1872605741567_pilotgen1_107_9_alg».proof.Proof.Gen.Kernel.Launch
import proofs.«143632_g1872605741567_pilotgen1_107_9_alg».proof.Proof.Gen.Kernel.Points
import proofs.«143632_g1872605741567_pilotgen1_107_9_alg».proof.Proof.Gen.Kernel.Frame
import proofs.«143632_g1872605741567_pilotgen1_107_9_alg».proof.Proof.Gen.KernelIdeal
import proofs.«143632_g1872605741567_pilotgen1_107_9_alg».proof.Proof.Gen.KernelIdeal.Skeleton
import proofs.«143632_g1872605741567_pilotgen1_107_9_alg».proof.Proof.Gen.KernelIdeal.Launch
import proofs.«143632_g1872605741567_pilotgen1_107_9_alg».proof.Proof.Gen.KernelIdeal.Points
import proofs.«143632_g1872605741567_pilotgen1_107_9_alg».proof.Proof.Gen.KernelIdeal.Frame
import proofs.«143632_g1872605741567_pilotgen1_107_9_alg».proof.Proof.Gen.ReferenceIdeal
import proofs.«143632_g1872605741567_pilotgen1_107_9_alg».proof.Proof.Gen.Pre_finite_inputs
import proofs.«143632_g1872605741567_pilotgen1_107_9_alg».proof.Proof.Gen.ReferenceIdeal.Run
import proofs.«143632_g1872605741567_pilotgen1_107_9_alg».proof.Proof.Gen.ReferenceIdeal.Read
import proofs.«143632_g1872605741567_pilotgen1_107_9_alg».proof.Proof.ReferenceValue
import proofs.«143632_g1872605741567_pilotgen1_107_9_alg».proof.Proof.KernelRun
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at `onBatch` of the arguments, which agree. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
